-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2000x256 : Shape := ⟨2, ![2000, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S32768x256 .f32) (main_arg1 : FVec F S2000x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S32768x256 : Shape := ⟨2, ![32768, 256]⟩
abbrev S2000x256 : Shape := ⟨2, ![2000, 256]⟩
abbrev S32768x2000 : Shape := ⟨2, ![32768, 2000]⟩
abbrev S256x256 : Shape := ⟨2, ![256, 256]⟩
abbrev S256x2000 : Shape := ⟨2, ![256, 2000]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S2000x256, .f32⟩
  | .hbm, ⟨2, _⟩ => ⟨S32768x256, .f32⟩
  | .hbm, ⟨3, _⟩ => ⟨S32768x2000, .f32⟩
  | .hbm, ⟨4, _⟩ => ⟨S32768x2000, .f32⟩
  | .local _ .vmem, ⟨0, _⟩ => ⟨S256x256, .f32⟩
  | .local _ .vmem, ⟨1, _⟩ => ⟨S256x256, .f32⟩
  | .local _ .vmem, ⟨2, _⟩ => ⟨S2000x256, .f32⟩
  | .local _ .vmem, ⟨3, _⟩ => ⟨S256x256, .f32⟩
  | .local _ .vmem, ⟨4, _⟩ => ⟨S256x256, .f32⟩
  | .local _ .vmem, ⟨5, _⟩ => ⟨S256x2000, .f32⟩
  | .local _ .vmem, ⟨6, _⟩ => ⟨S256x2000, .f32⟩
  | .local _ .vmem, ⟨7, _⟩ => ⟨S256x2000, .f32⟩
  | .local _ .vmem, ⟨8, _⟩ => ⟨S256x2000, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x2000_S256x2000_0_0 : ∀ a, (![0, 0] : Fin 2 → Nat) a + S256x2000.size a ≤ S256x2000.size a
  h_S256x2000 : 0 < S256x2000.numel
  reduces_S256x2000_S256 : S256x2000.Reduces [1] S256
  shapeCasts_S256_S256x1 : S256.ShapeCasts S256x1
  broadcasts_S256x1_S256x2000 : S256x1.Broadcasts S256x2000
  dot_S256x256_S2000x256_S256x2000_1_1_0_0_n_n_wf : DotDims.WF S256x256 S2000x256 S256x2000 [1] [1] [0] [0] [] []
  dot_S256x2000_S2000x256_S256x256_1_0_0_1_n_n_wf : DotDims.WF S256x2000 S2000x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .f32 = 32 ∨ (Rect.block (s := S32768x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S32768x256.size a
  hwx0_2 : ∀ i : grid0.Coords, EltTy.bits .f32 = 32 ∨ (Rect.block (s := S32768x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2000.size a ≤ S32768x2000.size a
  hwx0_3 : ∀ i : grid0.Coords, EltTy.bits .f32 = 32 ∨ (Rect.block (s := S32768x2000) S256x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2000.size a ≤ S32768x2000.size a
  hwx0_4 : ∀ i : grid0.Coords, EltTy.bits .f32 = 32 ∨ (Rect.block (s := S32768x2000) S256x2000.size (cc0_transform_4 i) (hinb0_4 i)).WholeWords (EltTy.packing .f32)

variable [Facts₀]

def dot_S256x256_S2000x256_S256x2000_1_1_0_0_n_n : DotDims S256x256 S2000x256 S256x2000 where
  lhsContracting := [1]
  rhsContracting := [1]
  lhsNonContracting := [0]
  rhsNonContracting := [0]
  lhsBatch := []
  rhsBatch := []
  wf := dot_S256x256_S2000x256_S256x2000_1_1_0_0_n_n_wf
def dot_S256x2000_S2000x256_S256x256_1_0_0_1_n_n : DotDims S256x2000 S2000x256 S256x256 where
  lhsContracting := [1]
  rhsContracting := [0]
  lhsNonContracting := [0]
  rhsNonContracting := [1]
  lhsBatch := []
  rhsBatch := []
  wf := dot_S256x2000_S2000x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x2000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S256x2000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x256 : Shape := ⟨2, ![32768, 256]⟩
abbrev S2000x256 : Shape := ⟨2, ![2000, 256]⟩
abbrev S32768x2000 : Shape := ⟨2, ![32768, 2000]⟩
abbrev S_ : Shape := ⟨0, ![]⟩
abbrev S32768 : Shape := ⟨1, ![32768]⟩
abbrev S32768x1 : Shape := ⟨2, ![32768, 1]⟩

abbrev nBuf : Space → Nat
  | .hbm => 39
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2000x256, .f32⟩
  | .hbm, ⟨2, _⟩ => ⟨S32768x2000, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x2000, .f32⟩
  | .hbm, ⟨10, _⟩ => ⟨S32768x2000, .f32⟩
  | .hbm, ⟨11, _⟩ => ⟨S32768x2000, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x2000, .f32⟩
  | .hbm, ⟨16, _⟩ => ⟨S32768x2000, .f32⟩
  | .hbm, ⟨17, _⟩ => ⟨S_, .f32⟩
  | .hbm, ⟨18, _⟩ => ⟨S32768x2000, .f32⟩
  | .hbm, ⟨19, _⟩ => ⟨S32768x2000, .f32⟩
  | .hbm, ⟨20, _⟩ => ⟨S_, .f32⟩
  | .hbm, ⟨21, _⟩ => ⟨S32768x2000, .f32⟩
  | .hbm, ⟨22, _⟩ => ⟨S32768x2000, .f32⟩
  | .hbm, ⟨23, _⟩ => ⟨S32768x2000, .f32⟩
  | .hbm, ⟨24, _⟩ => ⟨S32768x2000, .f32⟩
  | .hbm, ⟨25, _⟩ => ⟨S_, .f32⟩
  | .hbm, ⟨26, _⟩ => ⟨S32768x2000, .f32⟩
  | .hbm, ⟨27, _⟩ => ⟨S32768x2000, .f32⟩
  | .hbm, ⟨28, _⟩ => ⟨S32768x2000, .f32⟩
  | .hbm, ⟨29, _⟩ => ⟨S32768x2000, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x2000, .f32⟩
  | .hbm, ⟨37, _⟩ => ⟨S32768x2000, .f32⟩
  | .hbm, ⟨38, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S32768x2000_S32768_d1 : S32768x2000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  bcast_S_S32768x1 : S_.BroadcastsInDim S32768x1 (![] : Fin 0 → Fin S32768x1.rank)
  dot_S32768x256_S2000x256_S32768x2000_1_1_0_0_n_n_wf : DotDims.WF S32768x256 S2000x256 S32768x2000 [1] [1] [0] [0] [] []
  dot_S32768x2000_S2000x256_S32768x256_1_0_0_1_n_n_wf : DotDims.WF S32768x2000 S2000x256 S32768x256 [1] [0] [0] [1] [] []

variable [Facts₀]

def dot_S32768x256_S2000x256_S32768x2000_1_1_0_0_n_n : DotDims S32768x256 S2000x256 S32768x2000 where
  lhsContracting := [1]
  rhsContracting := [1]
  lhsNonContracting := [0]
  rhsNonContracting := [0]
  lhsBatch := []
  rhsBatch := []
  wf := dot_S32768x256_S2000x256_S32768x2000_1_1_0_0_n_n_wf
def dot_S32768x2000_S2000x256_S32768x256_1_0_0_1_n_n : DotDims S32768x2000 S2000x256 S32768x256 where
  lhsContracting := [1]
  rhsContracting := [0]
  lhsNonContracting := [0]
  rhsNonContracting := [1]
  lhsBatch := []
  rhsBatch := []
  wf := dot_S32768x2000_S2000x256_S32768x256_1_0_0_1_n_n_wf

class Facts : Prop extends Facts₀ where

variable [Facts]
-- ==== Proof.BlockProducts.lean ====
/-
  The kernel's two matrix products on one block, read at an entry.

  At the ideal instance a product accumulated into zero is, at each entry, the plain sum over the contracted axis of
  the operands' products. For the similarity product the contracted axis is the LAST of both operands (the query
  block times the bank transposed); for the read-out it is the last axis of the weights and the FIRST of the bank.
-/
import proofs.«180317_j46712064311884_1_alg».proof.Proof.Gen.KernelIdeal.Skeleton
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## Where each product reads its operands: a kept axis follows the output entry, the contracted axis the summation index -/

theorem simL_row (i : S256x2000.Idx) (q : dot_S256x256_S2000x256_S256x2000_1_1_0_0_n_n.contr.Idx) :
    (dot_S256x256_S2000x256_S256x2000_1_1_0_0_n_n.lhsIdx i q 0).val = (i 0).val := by
  unfold DotDims.lhsIdx
  rw [dif_neg (show ¬(0 : Fin S256x256.rank) ∈ dot_S256x256_S2000x256_S256x2000_1_1_0_0_n_n.lhsBatch by decide), dif_pos (show (0 : Fin S256x256.rank) ∈ dot_S256x256_S2000x256_S256x2000_1_1_0_0_n_n.lhsNonContracting by decide)]
  rfl

theorem simL_ch (i : S256x2000.Idx) (q : dot_S256x256_S2000x256_S256x2000_1_1_0_0_n_n.contr.Idx) :
    (dot_S256x256_S2000x256_S256x2000_1_1_0_0_n_n.lhsIdx i q 1).val = (q ⟨0, by decide⟩).val :=
  dot_S256x256_S2000x256_S256x2000_1_1_0_0_n_n.lhsIdx_val_of_single rfl i q

theorem simR_slot (i : S256x2000.Idx) (q : dot_S256x256_S2000x256_S256x2000_1_1_0_0_n_n.contr.Idx) :
    (dot_S256x256_S2000x256_S256x2000_1_1_0_0_n_n.rhsIdx i q 0).val = (i 1).val := by
  unfold DotDims.rhsIdx
  rw [dif_neg (show ¬(0 : Fin S2000x256.rank) ∈ dot_S256x256_S2000x256_S256x2000_1_1_0_0_n_n.rhsBatch by decide), dif_pos (show (0 : Fin S2000x256.rank) ∈ dot_S256x256_S2000x256_S256x2000_1_1_0_0_n_n.rhsNonContracting by decide)]
  rfl

theorem simR_ch (i : S256x2000.Idx) (q : dot_S256x256_S2000x256_S256x2000_1_1_0_0_n_n.contr.Idx) :
    (dot_S256x256_S2000x256_S256x2000_1_1_0_0_n_n.rhsIdx i q 1).val = (q ⟨0, by decide⟩).val :=
  dot_S256x256_S2000x256_S256x2000_1_1_0_0_n_n.rhsIdx_val_of_single rfl i q

theorem outL_row (i : S256x256.Idx) (q : dot_S256x2000_S2000x256_S256x256_1_0_0_1_n_n.contr.Idx) :
    (dot_S256x2000_S2000x256_S256x256_1_0_0_1_n_n.lhsIdx i q 0).val = (i 0).val := by
  unfold DotDims.lhsIdx
  rw [dif_neg (show ¬(0 : Fin S256x2000.rank) ∈ dot_S256x2000_S2000x256_S256x256_1_0_0_1_n_n.lhsBatch by decide), dif_pos (show (0 : Fin S256x2000.rank) ∈ dot_S256x2000_S2000x256_S256x256_1_0_0_1_n_n.lhsNonContracting by decide)]
  rfl

theorem outL_slot (i : S256x256.Idx) (q : dot_S256x2000_S2000x256_S256x256_1_0_0_1_n_n.contr.Idx) :
    (dot_S256x2000_S2000x256_S256x256_1_0_0_1_n_n.lhsIdx i q 1).val = (q ⟨0, by decide⟩).val :=
  dot_S256x2000_S2000x256_S256x256_1_0_0_1_n_n.lhsIdx_val_of_single rfl i q

theorem outR_slot (i : S256x256.Idx) (q : dot_S256x2000_S2000x256_S256x256_1_0_0_1_n_n.contr.Idx) :
    (dot_S256x2000_S2000x256_S256x256_1_0_0_1_n_n.rhsIdx i q 0).val = (q ⟨0, by decide⟩).val :=
  dot_S256x2000_S2000x256_S256x256_1_0_0_1_n_n.rhsIdx_val_of_single rfl i q

theorem outR_ch (i : S256x256.Idx) (q : dot_S256x2000_S2000x256_S256x256_1_0_0_1_n_n.contr.Idx) :
    (dot_S256x2000_S2000x256_S256x256_1_0_0_1_n_n.rhsIdx i q 1).val = (i 1).val := by
  unfold DotDims.rhsIdx
  rw [dif_neg (show ¬(1 : Fin S2000x256.rank) ∈ dot_S256x2000_S2000x256_S256x256_1_0_0_1_n_n.rhsBatch by decide), dif_pos (show (1 : Fin S2000x256.rank) ∈ dot_S256x2000_S2000x256_S256x256_1_0_0_1_n_n.rhsNonContracting by decide)]
  rfl

/-- Entry (p, q) of the block's similarity product: the inner product of row `p` of the left operand with row `q`
    of the right one. -/
theorem similarity_apply (A : FVec Ideal S256x256 .bf16) (B : FVec Ideal S2000x256 .bf16) (p : Fin 256) (q : Fin 2000) :
    FloatOps.matmul dot_S256x256_S2000x256_S256x2000_1_1_0_0_n_n none A B (constant (F := Ideal) S256x2000 .f32 0x00000000#32) (ix2 p q)
      = ∑ c : Fin 256, A (ix2 p c) * B (ix2 q c) := by
  rw [Ideal.matmul_constant_zero_apply, ← Equiv.sum_comp (contrEquiv1 dot_S256x256_S2000x256_S256x2000_1_1_0_0_n_n 256 rfl rfl).symm]
  refine Finset.sum_congr rfl fun k _ => ?_
  have hk := contrEquiv1_symm_val dot_S256x256_S2000x256_S256x2000_1_1_0_0_n_n 256 rfl rfl k
  have el : dot_S256x256_S2000x256_S256x2000_1_1_0_0_n_n.lhsIdx (ix2 p q) ((contrEquiv1 dot_S256x256_S2000x256_S256x2000_1_1_0_0_n_n 256 rfl rfl).symm k) = ix2 p k := funext fun a => Fin.ext (by
    match a with
    | ⟨0, _⟩ => exact simL_row _ _
    | ⟨1, _⟩ => exact (simL_ch _ _).trans hk)
  have er : dot_S256x256_S2000x256_S256x2000_1_1_0_0_n_n.rhsIdx (ix2 p q) ((contrEquiv1 dot_S256x256_S2000x256_S256x2000_1_1_0_0_n_n 256 rfl rfl).symm k) = ix2 q k := funext fun a => Fin.ext (by
    match a with
    | ⟨0, _⟩ => exact simR_slot _ _
    | ⟨1, _⟩ => exact (simR_ch _ _).trans hk)
  rw [el, er]

/-- Entry (p, c) of the block's read-out product: row `p` of the weights against column `c` of the bank. -/
theorem readout_apply (A : FVec Ideal S256x2000 .bf16) (B : FVec Ideal S2000x256 .bf16) (p : Fin 256) (c : Fin 256) :
    FloatOps.matmul dot_S256x2000_S2000x256_S256x256_1_0_0_1_n_n none A B (constant (F := Ideal) S256x256 .f32 0x00000000#32) (ix2 p c)
      = ∑ k : Fin 2000, A (ix2 p k) * B (ix2 k c) := by
  rw [Ideal.matmul_constant_zero_apply, ← Equiv.sum_comp (contrEquiv1 dot_S256x2000_S2000x256_S256x256_1_0_0_1_n_n 2000 rfl rfl).symm]
  refine Finset.sum_congr rfl fun k _ => ?_
  have hk := contrEquiv1_symm_val dot_S256x2000_S2000x256_S256x256_1_0_0_1_n_n 2000 rfl rfl k
  have el : dot_S256x2000_S2000x256_S256x256_1_0_0_1_n_n.lhsIdx (ix2 p c) ((contrEquiv1 dot_S256x2000_S2000x256_S256x256_1_0_0_1_n_n 2000 rfl rfl).symm k) = ix2 p k := funext fun a => Fin.ext (by
    match a with
    | ⟨0, _⟩ => exact outL_row _ _
    | ⟨1, _⟩ => exact (outL_slot _ _).trans hk)
  have er : dot_S256x2000_S2000x256_S256x256_1_0_0_1_n_n.rhsIdx (ix2 p c) ((contrEquiv1 dot_S256x2000_S2000x256_S256x256_1_0_0_1_n_n 2000 rfl rfl).symm k) = ix2 k c := funext fun a => Fin.ext (by
    match a with
    | ⟨0, _⟩ => exact (outR_slot _ _).trans hk
    | ⟨1, _⟩ => exact outR_ch _ _)
  rw [el, er]

end Cert.KernelIdeal.Block

end
-- ==== Proof.RowSpec.lean ====
/-
  Memory-bank attention, one row at a time.

  Every entry of the three result arrays depends on ONE row of the query array `x` and on the whole memory bank `W`:
  the row's similarities to the bank's slots (`logit`), those similarities put through a softmax, a hard shrinkage
  and an L1 normalisation (`weight`), and the bank's slots recombined with those weights (`recombine`). This module
  states that row function over the extended reals, with the operations as the ideal instance has them (`Ideal.exp`,
  `Ideal.div`, `max`, `+`, `-`, `*`) and the four float literals as the words both programs carry. Nothing here is
  ever evaluated: the two programs are compared as the SAME expression of the same entries, so no law of the extended
  reals beyond re-indexing a finite sum is used and no finiteness of the inputs is needed.
-/
import Idealize.ShloMosaic.PureOps.Ideal
import Idealize.ShloMosaic.PureOps.Ideal.Laws

noncomputable section

open scoped BigOperators

namespace Cert.MemoryRows

open Idealize.ShloMosaic

/-- The word both programs start a row maximum from (the f32 pattern of −∞). -/
abbrev bottom : EReal := Ideal.ofBits .f32 0xFF800000#32
/-- The shrinkage threshold's word (f32 of 0.0025). -/
abbrev thres : EReal := Ideal.ofBits .f32 0x3B23D70A#32
/-- The word of the small constant added to a denominator and used as the floor of the L1 mass (f32 of 1e-12). -/
abbrev tiny : EReal := Ideal.ofBits .f32 0x2B8CBCCC#32
/-- The zero word the rectifier compares against. -/
abbrev nought : EReal := Ideal.ofBits .f32 0x00000000#32

/-- Similarity of a query row to slot `k` of the bank: the inner product over the 256 channels. -/
def logit (xr : Fin 256 → EReal) (W : Fin 2000 → Fin 256 → EReal) (k : Fin 2000) : EReal :=
  ∑ c : Fin 256, xr c * W k c

/-- The row's largest similarity, as both programs take it: the fold of `max` from −∞ over the 2000 slots, then once
    more `max` with −∞. -/
def top (L : Fin 2000 → EReal) : EReal :=
  max bottom ((Finset.univ : Finset (Fin 2000)).fold max bottom L)

/-- The shifted exponential of slot `k`. -/
def expd (L : Fin 2000 → EReal) (k : Fin 2000) : EReal := Ideal.exp (L k - top L)

/-- The softmax weight of slot `k`: its shifted exponential over the row's sum of them. -/
def soft (L : Fin 2000 → EReal) (k : Fin 2000) : EReal := Ideal.div (expd L k) (∑ j : Fin 2000, expd L j)

/-- How far the softmax weight of slot `k` exceeds the threshold. -/
def excess (L : Fin 2000 → EReal) (k : Fin 2000) : EReal := soft L k - thres

/-- Hard shrinkage: `relu(a − λ) · a / (|a − λ| + ε)`, the absolute value being `max s (−s)`. -/
def shrunk (L : Fin 2000 → EReal) (k : Fin 2000) : EReal :=
  Ideal.div (max (excess L k) nought * soft L k) (max (excess L k) (-(excess L k)) + tiny)

/-- The row's L1 mass after shrinkage, floored at ε. -/
def mass (L : Fin 2000 → EReal) : EReal :=
  max (∑ j : Fin 2000, max (shrunk L j) (-(shrunk L j))) tiny

/-- The attention weight of slot `k`: the shrunk weight over the row's floored L1 mass. -/
def weight (L : Fin 2000 → EReal) (k : Fin 2000) : EReal := Ideal.div (shrunk L k) (mass L)

/-- Channel `c` of the read-out: the bank's slots recombined with the row's attention weights. -/
def recombine (a : Fin 2000 → EReal) (W : Fin 2000 → Fin 256 → EReal) (c : Fin 256) : EReal :=
  ∑ k : Fin 2000, a k * W k c

end Cert.MemoryRows

end
-- ==== Proof.BlockChain.lean ====
/-
  The softmax, shrinkage and L1 normalisation of one block of similarities, read at an entry.

  The kernel applies the chain to a whole [256, 2000] block `L` of similarities: a maximum and two sums along the slot
  axis, each laid back over the block as a column, and pointwise arithmetic in between. Read at entry (p, q) every
  stage is the row function of `RowSpec` applied to row `p` of `L`: a column laid over the block reads its row's value,
  a lane maximum is the fold of `max` over the row's 2000 slots, a lane sum the sum over them, and the pointwise
  operations are the extended reals' own.
-/
import proofs.«180317_j46712064311884_1_alg».proof.Proof.Gen.KernelIdeal.Skeleton
import proofs.«180317_j46712064311884_1_alg».proof.Proof.RowSpec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.MemoryRows

/-! ## Columns: a per-row value laid over the block -/

/-- A per-row vector recast as a column reads its row's value. -/
theorem column_apply (v : FVec Ideal S256 .f32) (p : Fin 256) :
    shapeCast S256x1 v shapeCasts_S256_S256x1 (ix2 p (0 : Fin 1)) = v (ix1 p) :=
  shapeCast_apply v shapeCasts_S256_S256x1 (ix2 p (0 : Fin 1)) (ix1 p)
    (by rw [Shape.rowMajor_val_one, Shape.rowMajor_val_two]; show p.val = p.val * 1 + 0; omega)

/-- A column laid over the block reads, at (p, q), the column's entry of row `p`. -/
theorem spread_apply (w : FVec Ideal S256x1 .f32) (p : Fin 256) (q : Fin 2000) :
    broadcastTo S256x2000 w broadcasts_S256x1_S256x2000 (ix2 p q) = w (ix2 p (0 : Fin 1)) :=
  broadcastTo_apply w broadcasts_S256x1_S256x2000 (ix2 p q) (ix2 p (0 : Fin 1)) (fun a => match a with
    | ⟨0, _⟩ => by show p.val = (if (256 : Nat) = 1 then 0 else p.val); rw [if_neg (by decide)]
    | ⟨1, _⟩ => by show 0 = (if (1 : Nat) = 1 then 0 else q.val); rw [if_pos rfl])

/-- A per-row vector laid over the block reads, at (p, q), the value of row `p`. -/
theorem spread_column_apply (v : FVec Ideal S256 .f32) (p : Fin 256) (q : Fin 2000) :
    broadcastTo S256x2000 (shapeCast S256x1 v shapeCasts_S256_S256x1) broadcasts_S256x1_S256x2000 (ix2 p q) = v (ix1 p) :=
  (spread_apply _ p q).trans (column_apply v p)

/-! ## The two lane reductions along the slot axis -/

/-- Entry `k` of row `p`, as the reduction names it: the reduced index `p` with the slot coordinate put back. -/
theorem lift_row (p : Fin 256) (k : Fin 2000) : reduces_S256x2000_S256.lift (ix1 p) k = ix2 p k :=
  funext fun a => Fin.ext (by match a with | ⟨0, _⟩ => rfl | ⟨1, _⟩ => rfl)

/-- The lane maximum of row `p`: the fold of `max` from the starting word over the row's 2000 slots. -/
theorem lane_max_apply (src : FVec Ideal S256x2000 .f32) (p : Fin 256) :
    multiReduction .maximumf [1] S256 src 0xFF800000#32 reduces_S256x2000_S256 (.inl rfl) rfl (ix1 p)
      = (Finset.univ : Finset (Fin 2000)).fold max bottom (fun k => src (ix2 p k)) := by
  refine (Ideal.multiReduction_maximumf_single src 0xFF800000#32 reduces_S256x2000_S256 (.inl rfl) rfl (ix1 p)).trans ?_
  refine congrArg ((Finset.univ : Finset (Fin 2000)).fold max bottom) (funext fun k => ?_)
  exact congrArg src (lift_row p k)

/-- The lane sum of row `p`: the sum over the row's 2000 slots. -/
theorem lane_sum_apply (src : FVec Ideal S256x2000 .f32) (p : Fin 256) :
    multiReduction .add [1] S256 src 0x00000000#32 reduces_S256x2000_S256 (.inl rfl) rfl (ix1 p)
      = ∑ k : Fin 2000, src (ix2 p k) := by
  refine (Ideal.multiReduction_add_single src 0x00000000#32 reduces_S256x2000_S256 (.inl rfl) rfl (ix1 p)).trans ?_
  exact Finset.sum_congr rfl fun k _ => congrArg src (lift_row p k)

/-! ## The chain's stages, each a vector operation of the block of similarities -/

/-- Each row's largest similarity. -/
def vTop (L : FVec Ideal S256x2000 .f32) : FVec Ideal S256 .f32 :=
  maximumf (broadcast S256 (Scalar.ofBits .f32 0xFF800000#32))
    (multiReduction .maximumf [1] S256 L 0xFF800000#32 reduces_S256x2000_S256 (.inl rfl) rfl)

/-- The shifted exponentials. -/
def vExp (L : FVec Ideal S256x2000 .f32) : FVec Ideal S256x2000 .f32 :=
  exp (subf L (broadcastTo S256x2000 (shapeCast S256x1 (vTop L) shapeCasts_S256_S256x1) broadcasts_S256x1_S256x2000))

/-- The softmax weights. -/
def vSoft (L : FVec Ideal S256x2000 .f32) : FVec Ideal S256x2000 .f32 :=
  divf (vExp L) (broadcastTo S256x2000 (shapeCast S256x1
    (multiReduction .add [1] S256 (vExp L) 0x00000000#32 reduces_S256x2000_S256 (.inl rfl) rfl) shapeCasts_S256_S256x1) broadcasts_S256x1_S256x2000)

/-- The softmax weights less the threshold. -/
def vExcess (L : FVec Ideal S256x2000 .f32) : FVec Ideal S256x2000 .f32 :=
  subf (vSoft L) (broadcast S256x2000 (Scalar.ofBits .f32 0x3B23D70A#32))

/-- The hard-shrunk weights. -/
def vShrunk (L : FVec Ideal S256x2000 .f32) : FVec Ideal S256x2000 .f32 :=
  divf (mulf (maximumf (vExcess L) (broadcast S256x2000 (Scalar.ofBits .f32 0x00000000#32))) (vSoft L))
    (addf (absf (vExcess L)) (broadcast S256x2000 (Scalar.ofBits .f32 0x2B8CBCCC#32)))

/-- The attention weights: the shrunk weights over each row's floored L1 mass. -/
def vWeight (L : FVec Ideal S256x2000 .f32) : FVec Ideal S256x2000 .f32 :=
  divf (vShrunk L) (broadcastTo S256x2000
    (maximumf (shapeCast S256x1 (multiReduction .add [1] S256 (absf (vShrunk L)) 0x00000000#32 reduces_S256x2000_S256 (.inl rfl) rfl) shapeCasts_S256_S256x1)
      (broadcast S256x1 (Scalar.ofBits .f32 0x2B8CBCCC#32))) broadcasts_S256x1_S256x2000)

/-- The kernel's attention payload is this chain of its similarity payload. -/
theorem weights_payload (P0 : Vec Ideal S256x256 .f32) (P1 : Vec Ideal S2000x256 .f32) :
    k0_pay3 P0 P1 = vWeight (k0_pay2 P0 P1) := rfl

/-! ## Each stage at an entry is the row function of the block's row -/

/-- The pointwise maximum of the starting word with a per-row vector, read at row `p`. -/
theorem floor_max_apply (v : FVec Ideal S256 .f32) (p : Fin 256) :
    maximumf (broadcast S256 (Scalar.ofBits .f32 0xFF800000#32)) v (ix1 p) = max bottom (v (ix1 p)) := rfl

theorem vTop_apply (L : FVec Ideal S256x2000 .f32) (p : Fin 256) :
    vTop L (ix1 p) = top (fun k => L (ix2 p k)) := by
  unfold vTop
  rw [floor_max_apply, lane_max_apply]
  rfl

theorem vExp_apply (L : FVec Ideal S256x2000 .f32) (p : Fin 256) (q : Fin 2000) :
    vExp L (ix2 p q) = expd (fun k => L (ix2 p k)) q := by
  show Ideal.exp (L (ix2 p q) - broadcastTo S256x2000 (shapeCast S256x1 (vTop L) shapeCasts_S256_S256x1) broadcasts_S256x1_S256x2000 (ix2 p q)) = _
  rw [spread_column_apply, vTop_apply]
  rfl

theorem vSoft_apply (L : FVec Ideal S256x2000 .f32) (p : Fin 256) (q : Fin 2000) :
    vSoft L (ix2 p q) = soft (fun k => L (ix2 p k)) q := by
  show Ideal.div (vExp L (ix2 p q)) (broadcastTo S256x2000 (shapeCast S256x1
    (multiReduction .add [1] S256 (vExp L) 0x00000000#32 reduces_S256x2000_S256 (.inl rfl) rfl) shapeCasts_S256_S256x1) broadcasts_S256x1_S256x2000 (ix2 p q)) = _
  rw [spread_column_apply, lane_sum_apply]
  simp only [vExp_apply]
  rfl

theorem vExcess_apply (L : FVec Ideal S256x2000 .f32) (p : Fin 256) (q : Fin 2000) :
    vExcess L (ix2 p q) = excess (fun k => L (ix2 p k)) q := by
  show vSoft L (ix2 p q) - thres = _
  rw [vSoft_apply]
  rfl

theorem vShrunk_apply (L : FVec Ideal S256x2000 .f32) (p : Fin 256) (q : Fin 2000) :
    vShrunk L (ix2 p q) = shrunk (fun k => L (ix2 p k)) q := by
  show Ideal.div (max (vExcess L (ix2 p q)) nought * vSoft L (ix2 p q)) (max (vExcess L (ix2 p q)) (-(vExcess L (ix2 p q))) + tiny) = _
  rw [vExcess_apply, vSoft_apply]
  rfl

theorem vWeight_apply (L : FVec Ideal S256x2000 .f32) (p : Fin 256) (q : Fin 2000) :
    vWeight L (ix2 p q) = weight (fun k => L (ix2 p k)) q := by
  show Ideal.div (vShrunk L (ix2 p q)) (broadcastTo S256x2000
    (maximumf (shapeCast S256x1 (multiReduction .add [1] S256 (absf (vShrunk L)) 0x00000000#32 reduces_S256x2000_S256 (.inl rfl) rfl) shapeCasts_S256_S256x1)
      (broadcast S256x1 (Scalar.ofBits .f32 0x2B8CBCCC#32))) broadcasts_S256x1_S256x2000 (ix2 p q)) = _
  rw [spread_apply]
  show Ideal.div (vShrunk L (ix2 p q)) (max (shapeCast S256x1 (multiReduction .add [1] S256 (absf (vShrunk L)) 0x00000000#32 reduces_S256x2000_S256 (.inl rfl) rfl) shapeCasts_S256_S256x1 (ix2 p (0 : Fin 1))) tiny) = _
  rw [column_apply, lane_sum_apply]
  have hs : ∀ j : Fin 2000, absf (vShrunk L) (ix2 p j)
      = max (shrunk (fun k => L (ix2 p k)) j) (-(shrunk (fun k => L (ix2 p k)) j)) := fun j => by
    show max (vShrunk L (ix2 p j)) (-(vShrunk L (ix2 p j))) = _
    rw [vShrunk_apply]
  simp only [hs, vShrunk_apply]
  rfl

end Cert.KernelIdeal.Block

end
-- ==== Proof.BlockPayloads.lean ====
/-
  What the kernel's body leaves in its three output blocks, entry by entry.

  With `P0` the staged [256, 256] block of queries and `P1` the staged bank, entry (p, ·) of each output block is the
  row function of `RowSpec` at row `p` of `P0` and the bank `P1`: the similarities, the attention weights computed from
  them, and the bank recombined with those weights. (The format changes in front of both products are the identity at
  the ideal instance.)
-/
import proofs.«180317_j46712064311884_1_alg».proof.Proof.BlockProducts
import proofs.«180317_j46712064311884_1_alg».proof.Proof.BlockChain

noncomputable section

open scoped BigOperators

namespace Cert.KernelIdeal.Block

open Cert.KernelIdeal Cert.KernelIdeal.Gen Idealize.ShloMosaic Idealize.ShloMosaic.ValueIdx Cert.MemoryRows

/-- Row `p` of a block of queries, as a function of the channel. -/
abbrev queryRow (P0 : Vec Ideal S256x256 .f32) (p : Fin 256) : Fin 256 → EReal := fun c => P0 (ix2 p c)

/-- The bank as a function of slot and channel. -/
abbrev bank (P1 : Vec Ideal S2000x256 .f32) : Fin 2000 → Fin 256 → EReal := fun k c => P1 (ix2 k c)

/-- The similarity block at (p, q): row `p`'s similarity to slot `q`. -/
theorem logits_block (P0 : Vec Ideal S256x256 .f32) (P1 : Vec Ideal S2000x256 .f32) (p : Fin 256) (q : Fin 2000) :
    k0_pay2 P0 P1 (ix2 p q) = logit (queryRow P0 p) (bank P1) q := by
  unfold k0_pay2 k0_pay1
  refine (similarity_apply _ _ p q).trans ?_
  rfl

/-- The attention block at (p, q): row `p`'s attention weight of slot `q`. -/
theorem weights_block (P0 : Vec Ideal S256x256 .f32) (P1 : Vec Ideal S2000x256 .f32) (p : Fin 256) (q : Fin 2000) :
    k0_pay3 P0 P1 (ix2 p q) = weight (logit (queryRow P0 p) (bank P1)) q := by
  rw [weights_payload, vWeight_apply]
  exact congrArg (fun ℓ => weight ℓ q) (funext fun k => logits_block P0 P1 p k)

/-- The read-out block at (p, c): channel `c` of the bank recombined with row `p`'s attention weights. -/
theorem readout_block (P0 : Vec Ideal S256x256 .f32) (P1 : Vec Ideal S2000x256 .f32) (p : Fin 256) (c : Fin 256) :
    k0_pay4 P0 P1 (ix2 p c) = recombine (weight (logit (queryRow P0 p) (bank P1))) (bank P1) c := by
  unfold k0_pay4 k0_pay1
  refine (readout_apply _ _ p c).trans ?_
  unfold recombine
  refine Finset.sum_congr rfl fun k _ => ?_
  show k0_pay3 P0 P1 (ix2 p k) * P1 (ix2 k c) = _
  rw [weights_block]

end Cert.KernelIdeal.Block

end
-- ==== Proof.ArraySpec.lean ====
/-
  The three result arrays as functions of the two argument arrays.

  Row `n` of every result is the row function of `RowSpec` at row `n` of the queries `x` and the whole bank `W`. The
  shapes are written out (32768 queries, 2000 slots, 256 channels) so that both programs, which name these shapes
  separately, read the same functions.
-/
import proofs.«180317_j46712064311884_1_alg».proof.Proof.RowSpec
import Idealize.ShloMosaic.Lib.ValueIdx

noncomputable section

namespace Cert.MemoryRows

open Idealize.ShloMosaic Idealize.ShloMosaic.ValueIdx

/-- The array of queries. -/
abbrev Queries : Type := (⟨2, ![32768, 256]⟩ : Shape).Idx → EReal
/-- The memory bank. -/
abbrev Bank : Type := (⟨2, ![2000, 256]⟩ : Shape).Idx → EReal

/-- Row `n` of the queries, as a function of the channel. -/
abbrev queryAt (x : Queries) (n : Fin 32768) : Fin 256 → EReal := fun c => x (ix2 n c)

/-- The bank as a function of slot and channel. -/
abbrev slots (W : Bank) : Fin 2000 → Fin 256 → EReal := fun k c => W (ix2 k c)

/-- Query `n`'s similarity to slot `k`. -/
def similarityAt (x : Queries) (W : Bank) (n : Fin 32768) (k : Fin 2000) : EReal :=
  logit (queryAt x n) (slots W) k

/-- Query `n`'s attention weight of slot `k`. -/
def attentionAt (x : Queries) (W : Bank) (n : Fin 32768) (k : Fin 2000) : EReal :=
  weight (logit (queryAt x n) (slots W)) k

/-- Channel `c` of query `n`'s read-out. -/
def readoutAt (x : Queries) (W : Bank) (n : Fin 32768) (c : Fin 256) : EReal :=
  recombine (weight (logit (queryAt x n) (slots W))) (slots W) c

/-- The similarities before the softmax, as an array. -/
def similarities (x : Queries) (W : Bank) : (⟨2, ![32768, 2000]⟩ : Shape).Idx → EReal :=
  fun i => similarityAt x W (i 0) (i 1)

/-- The attention weights, as an array. -/
def attention (x : Queries) (W : Bank) : (⟨2, ![32768, 2000]⟩ : Shape).Idx → EReal :=
  fun i => attentionAt x W (i 0) (i 1)

/-- The read-out, as an array. -/
def readout (x : Queries) (W : Bank) : (⟨2, ![32768, 256]⟩ : Shape).Idx → EReal :=
  fun i => readoutAt x W (i 0) (i 1)

end Cert.MemoryRows

end
-- ==== Proof.KernelArrays.lean ====
/-
  From the kernel's blocks to its three result arrays.

  The grid has 128 points; point `t` stages rows 256·t … 256·t + 255 of the queries and the whole bank, and writes
  back rows 256·t … 256·t + 255 of each result. Row `p` of what it writes is the row function of `RowSpec` at row
  `p` of the staged queries, that is at row 256·t + p of the query array, so every point writes a block of ONE
  function of the argument arrays; the 128 blocks of 256 rows cover the 32768 rows, so each result array ends as that
  function: `readout`, `attention`, `similarities`.
-/
import proofs.«180317_j46712064311884_1_alg».proof.Proof.Gen.KernelIdeal.Value
import proofs.«180317_j46712064311884_1_alg».proof.Proof.BlockPayloads
import proofs.«180317_j46712064311884_1_alg».proof.Proof.ArraySpec
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Idealize.ShloMosaic.ValueIdx Cert.MemoryRows

variable (m : (ℓ : Loc nD τ sig) → Buf (Elt Ideal) ℓ) (ρ : Dev nD → PrngReg)

theorem hz : (![0, 0] : Fin 2 → Nat) = fun _ => 0 := funext fun a => by fin_cases a <;> rfl

/-- The windows' block indices, decided over the 128 points: the queries and the three results move down one row block
    per point, the bank's one block is always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The row of the arrays under row `p` of point `t`'s blocks. -/
def rowAt (t : Fin cfg0.N) (p : Fin 256) : Fin 32768 :=
  ⟨t.val * 256 + p.val, by have ht : t.val < cfg0.N := t.isLt; have hN : cfg0.N = 128 := N_0; have hp := p.isLt; omega⟩

/-- The query array as the region finds it. -/
abbrev queries (c : Dev nD) : Queries := m ((c : Thread nD τ).loc main_arg0)
/-- The bank as the region finds it. -/
abbrev bankArr (c : Dev nD) : Bank := m ((c : Thread nD τ).loc main_arg1)

/-- Row `p` of the query block staged at point `t` is row 256·t + p of the query array. -/
theorem query_block (c : Dev nD) (t : Fin cfg0.N) (p ch : Fin 256) :
    (iblk m c 0 t : Vec Ideal S256x256 .f32) (ix2 p ch) = queries m c (ix2 (rowAt t p) ch) := by
  have e0 := (idx_facts t).1
  have e1 := (idx_facts t).2.1
  unfold iblk
  rw [View.read_apply]
  show V m c main_arg0 _ = m (c.tc.loc main_arg0) _
  unfold V
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 256 + 1 * ch.val = ch.val; rw [e1]; omega

/-- The bank block staged at every point is the whole bank. -/
theorem bank_block (c : Dev nD) (t : Fin cfg0.N) (k : Fin 2000) (ch : Fin 256) :
    (iblk m c 1 t : Vec Ideal S2000x256 .f32) (ix2 k ch) = bankArr m c (ix2 k ch) := by
  have e0 := (idx_facts t).2.2.1
  have e1 := (idx_facts t).2.2.2.1
  unfold iblk
  rw [View.read_apply]
  show V m c main_arg1 _ = m (c.tc.loc main_arg1) _
  unfold V
  congr 1
  funext a
  apply Fin.ext
  match a with
  | ⟨0, _⟩ => show win0_1.index t (0 : Fin 2) * 2000 + 1 * k.val = k.val; rw [e0]; omega
  | ⟨1, _⟩ => show win0_1.index t (1 : Fin 2) * 256 + 1 * ch.val = ch.val; rw [e1]; omega

/-! ## One entry of a block is one entry of the array's function (stated over variable blocks) -/

theorem row_eq (P0 : Vec Ideal S256x256 .f32) (x : Queries) (t : Fin cfg0.N)
    (hQ : ∀ p ch : Fin 256, P0 (ix2 p ch) = x (ix2 (rowAt t p) ch)) (p : Fin 256) :
    queryRow P0 p = queryAt x (rowAt t p) := funext fun ch => hQ p ch

theorem bank_eq (P1 : Vec Ideal S2000x256 .f32) (W : Bank)
    (hW : ∀ (k : Fin 2000) (ch : Fin 256), P1 (ix2 k ch) = W (ix2 k ch)) : bank P1 = slots W :=
  funext fun k => funext fun ch => hW k ch

/-- Entry `y` of the similarity block of blocks that hold rows 256·t … of the queries and the whole bank is entry `i` of `similarities`, when `i` is `y` moved down 256·t rows. -/
theorem similarity_entry (P0 : Vec Ideal S256x256 .f32) (P1 : Vec Ideal S2000x256 .f32) (x : Queries) (W : Bank) (t : Fin cfg0.N)
    (hQ : ∀ p ch : Fin 256, P0 (ix2 p ch) = x (ix2 (rowAt t p) ch))
    (hW : ∀ (k : Fin 2000) (ch : Fin 256), P1 (ix2 k ch) = W (ix2 k ch))
    (y : S256x2000.Idx) (i : S32768x2000.Idx) (h0 : (i 0).val = t.val * 256 + (y 0).val) (h1 : (i 1).val = (y 1).val) :
    k0_pay2 P0 P1 y = similarities x W i := by
  obtain ⟨p, q, rfl⟩ : ∃ (p : Fin 256) (q : Fin 2000), y = ix2 p q := ⟨y 0, y 1, eq_ix2 y⟩
  obtain ⟨n, k, rfl⟩ : ∃ (n : Fin 32768) (k : Fin 2000), i = ix2 n k := ⟨i 0, i 1, eq_ix2 i⟩
  have hn : n = rowAt t p := Fin.ext h0
  have hk : k = q := Fin.ext h1
  rw [hn, hk, logits_block, row_eq P0 x t hQ p, bank_eq P1 W hW]
  rfl

/-- The same for the attention block and `attention`. -/
theorem attention_entry (P0 : Vec Ideal S256x256 .f32) (P1 : Vec Ideal S2000x256 .f32) (x : Queries) (W : Bank) (t : Fin cfg0.N)
    (hQ : ∀ p ch : Fin 256, P0 (ix2 p ch) = x (ix2 (rowAt t p) ch))
    (hW : ∀ (k : Fin 2000) (ch : Fin 256), P1 (ix2 k ch) = W (ix2 k ch))
    (y : S256x2000.Idx) (i : S32768x2000.Idx) (h0 : (i 0).val = t.val * 256 + (y 0).val) (h1 : (i 1).val = (y 1).val) :
    k0_pay3 P0 P1 y = attention x W i := by
  obtain ⟨p, q, rfl⟩ : ∃ (p : Fin 256) (q : Fin 2000), y = ix2 p q := ⟨y 0, y 1, eq_ix2 y⟩
  obtain ⟨n, k, rfl⟩ : ∃ (n : Fin 32768) (k : Fin 2000), i = ix2 n k := ⟨i 0, i 1, eq_ix2 i⟩
  have hn : n = rowAt t p := Fin.ext h0
  have hk : k = q := Fin.ext h1
  rw [hn, hk, weights_block, row_eq P0 x t hQ p, bank_eq P1 W hW]
  rfl

/-- The same for the read-out block and `readout`. -/
theorem readout_entry (P0 : Vec Ideal S256x256 .f32) (P1 : Vec Ideal S2000x256 .f32) (x : Queries) (W : Bank) (t : Fin cfg0.N)
    (hQ : ∀ p ch : Fin 256, P0 (ix2 p ch) = x (ix2 (rowAt t p) ch))
    (hW : ∀ (k : Fin 2000) (ch : Fin 256), P1 (ix2 k ch) = W (ix2 k ch))
    (y : S256x256.Idx) (i : S32768x256.Idx) (h0 : (i 0).val = t.val * 256 + (y 0).val) (h1 : (i 1).val = (y 1).val) :
    k0_pay4 P0 P1 y = readout x W i := by
  obtain ⟨p, q, rfl⟩ : ∃ (p : Fin 256) (q : Fin 256), y = ix2 p q := ⟨y 0, y 1, eq_ix2 y⟩
  obtain ⟨n, k, rfl⟩ : ∃ (n : Fin 32768) (k : Fin 256), i = ix2 n k := ⟨i 0, i 1, eq_ix2 i⟩
  have hn : n = rowAt t p := Fin.ext h0
  have hk : k = q := Fin.ext h1
  rw [hn, hk, readout_block, row_eq P0 x t hQ p, bank_eq P1 W hW]
  rfl

/-! ## What each point writes back -/

/-- What point `t` writes back to the readout array is block `t` of `readout` of the argument arrays. -/
theorem flushed2_eq (c : Dev nD) (t : Fin cfg0.N) :
    (dats m 0 c).flushed 2 t = ((cfg0.win 2).blk t).view.read (Elt Ideal) (readout (queries m c) (bankArr m c)) := by
  rw [Value.flushed2]
  unfold out0_2
  rw [View.canon_unit_zero hz]
  simp only [View.ld_unit_zero (S := S256x256) hz, View.ld_unit_zero (S := S2000x256) hz]
  have e0 := (idx_facts t).2.2.2.2.1
  have e1 := (idx_facts t).2.2.2.2.2.1
  funext j
  show k0_pay4 (iblk m c 0 t) (iblk m c 1 t) j = readout (queries m c) (bankArr m c) (((cfg0.win 2).blk t).view.emb j)
  refine readout_entry (iblk m c 0 t) (iblk m c 1 t) (queries m c) (bankArr m c) t (query_block m c t) (bank_block m c t) j
    (((cfg0.win 2).blk t).view.emb j) ?_ ?_
  · show win0_2.index t (0 : Fin 2) * 256 + 1 * (j 0).val = t.val * 256 + (j 0).val
    rw [e0]; omega
  · show win0_2.index t (1 : Fin 2) * 256 + 1 * (j 1).val = (j 1).val
    rw [e1]; omega

/-- What point `t` writes back to the attention array is block `t` of `attention` of the argument arrays. -/
theorem flushed3_eq (c : Dev nD) (t : Fin cfg0.N) :
    (dats m 0 c).flushed 3 t = ((cfg0.win 3).blk t).view.read (Elt Ideal) (attention (queries m c) (bankArr m c)) := by
  rw [Value.flushed3]
  unfold out0_3
  rw [View.canon_unit_zero hz]
  simp only [View.ld_unit_zero (S := S256x256) hz, View.ld_unit_zero (S := S2000x256) hz]
  have e0 := (idx_facts t).2.2.2.2.2.2.1
  have e1 := (idx_facts t).2.2.2.2.2.2.2.1
  funext j
  show k0_pay3 (iblk m c 0 t) (iblk m c 1 t) j = attention (queries m c) (bankArr m c) (((cfg0.win 3).blk t).view.emb j)
  refine attention_entry (iblk m c 0 t) (iblk m c 1 t) (queries m c) (bankArr m c) t (query_block m c t) (bank_block m c t) j
    (((cfg0.win 3).blk t).view.emb j) ?_ ?_
  · show win0_3.index t (0 : Fin 2) * 256 + 1 * (j 0).val = t.val * 256 + (j 0).val
    rw [e0]; omega
  · show win0_3.index t (1 : Fin 2) * 2000 + 1 * (j 1).val = (j 1).val
    rw [e1]; omega

/-- What point `t` writes back to the similarities array is block `t` of `similarities` of the argument arrays. -/
theorem flushed4_eq (c : Dev nD) (t : Fin cfg0.N) :
    (dats m 0 c).flushed 4 t = ((cfg0.win 4).blk t).view.read (Elt Ideal) (similarities (queries m c) (bankArr m c)) := by
  rw [Value.flushed4]
  unfold out0_4
  rw [View.canon_unit_zero hz]
  simp only [View.ld_unit_zero (S := S256x256) hz, View.ld_unit_zero (S := S2000x256) hz]
  have e0 := (idx_facts t).2.2.2.2.2.2.2.2.1
  have e1 := (idx_facts t).2.2.2.2.2.2.2.2.2
  funext j
  show k0_pay2 (iblk m c 0 t) (iblk m c 1 t) j = similarities (queries m c) (bankArr m c) (((cfg0.win 4).blk t).view.emb j)
  refine similarity_entry (iblk m c 0 t) (iblk m c 1 t) (queries m c) (bankArr m c) t (query_block m c t) (bank_block m c t) j
    (((cfg0.win 4).blk t).view.emb j) ?_ ?_
  · show win0_4.index t (0 : Fin 2) * 256 + 1 * (j 0).val = t.val * 256 + (j 0).val
    rw [e0]; omega
  · show win0_4.index t (1 : Fin 2) * 2000 + 1 * (j 1).val = (j 1).val
    rw [e1]; omega

/-! ## The blocks cover the arrays -/

/-- An index of the array is in point `t`'s block iff each coordinate is in the block's range on its axis. -/
theorem mem_blk2 (t : Fin cfg0.N) (i : S32768x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0_0).slice (win0_2.rect t)).set ↔ _
  rw [View.set_slice_whole, Rect.mem_set_unit]
  exact Iff.rfl

/-- Every index of the array lies in the block of the point that handles its row: point `row / 256`. -/
theorem cover2 (i : S32768x256.Idx) : ∃ t : Fin cfg0.N, (cfg0.win 2).flush t = true ∧ i ∈ ((cfg0.win 2).blk t).view.set := by
  have hi0 : (i 0).val < 32768 := (i 0).isLt
  have hi1 : (i 1).val < 256 := (i 1).isLt
  have hN : cfg0.N = 128 := N_0
  obtain ⟨t, ht⟩ : ∃ t : Fin cfg0.N, t.val = (i 0).val / 256 := ⟨⟨(i 0).val / 256, by rw [hN]; omega⟩, rfl⟩
  have e0 := (idx_facts t).2.2.2.2.1
  have e1 := (idx_facts t).2.2.2.2.2.1
  refine ⟨t, flush0_2 t, ?_⟩
  rw [mem_blk2]
  intro a
  match a with
  | ⟨0, _⟩ =>
    show win0_2.index t (0 : Fin 2) * 256 ≤ (i 0).val ∧ (i 0).val < win0_2.index t (0 : Fin 2) * 256 + 256
    rw [e0]; omega
  | ⟨1, _⟩ =>
    show win0_2.index t (1 : Fin 2) * 256 ≤ (i 1).val ∧ (i 1).val < win0_2.index t (1 : Fin 2) * 256 + 256
    rw [e1]; omega

/-- An index of the array is in point `t`'s block iff each coordinate is in the block's range on its axis. -/
theorem mem_blk3 (t : Fin cfg0.N) (i : S32768x2000.Idx) :
    i ∈ ((cfg0.win 3).blk t).view.set ↔ ∀ a : Fin 2, win0_3.index t a * S256x2000.size a ≤ (i a).val ∧ (i a).val < win0_3.index t a * S256x2000.size a + S256x2000.size a := by
  show i ∈ ((View.whole main_v0_1).slice (win0_3.rect t)).set ↔ _
  rw [View.set_slice_whole, Rect.mem_set_unit]
  exact Iff.rfl

/-- Every index of the array lies in the block of the point that handles its row: point `row / 256`. -/
theorem cover3 (i : S32768x2000.Idx) : ∃ t : Fin cfg0.N, (cfg0.win 3).flush t = true ∧ i ∈ ((cfg0.win 3).blk t).view.set := by
  have hi0 : (i 0).val < 32768 := (i 0).isLt
  have hi1 : (i 1).val < 2000 := (i 1).isLt
  have hN : cfg0.N = 128 := N_0
  obtain ⟨t, ht⟩ : ∃ t : Fin cfg0.N, t.val = (i 0).val / 256 := ⟨⟨(i 0).val / 256, by rw [hN]; omega⟩, rfl⟩
  have e0 := (idx_facts t).2.2.2.2.2.2.1
  have e1 := (idx_facts t).2.2.2.2.2.2.2.1
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e0]; omega
  | ⟨1, _⟩ =>
    show win0_3.index t (1 : Fin 2) * 2000 ≤ (i 1).val ∧ (i 1).val < win0_3.index t (1 : Fin 2) * 2000 + 2000
    rw [e1]; omega

/-- An index of the array is in point `t`'s block iff each coordinate is in the block's range on its axis. -/
theorem mem_blk4 (t : Fin cfg0.N) (i : S32768x2000.Idx) :
    i ∈ ((cfg0.win 4).blk t).view.set ↔ ∀ a : Fin 2, win0_4.index t a * S256x2000.size a ≤ (i a).val ∧ (i a).val < win0_4.index t a * S256x2000.size a + S256x2000.size a := by
  show i ∈ ((View.whole main_v0_2).slice (win0_4.rect t)).set ↔ _
  rw [View.set_slice_whole, Rect.mem_set_unit]
  exact Iff.rfl

/-- Every index of the array lies in the block of the point that handles its row: point `row / 256`. -/
theorem cover4 (i : S32768x2000.Idx) : ∃ t : Fin cfg0.N, (cfg0.win 4).flush t = true ∧ i ∈ ((cfg0.win 4).blk t).view.set := by
  have hi0 : (i 0).val < 32768 := (i 0).isLt
  have hi1 : (i 1).val < 2000 := (i 1).isLt
  have hN : cfg0.N = 128 := N_0
  obtain ⟨t, ht⟩ : ∃ t : Fin cfg0.N, t.val = (i 0).val / 256 := ⟨⟨(i 0).val / 256, by rw [hN]; omega⟩, rfl⟩
  have e0 := (idx_facts t).2.2.2.2.2.2.2.2.1
  have e1 := (idx_facts t).2.2.2.2.2.2.2.2.2
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e0]; omega
  | ⟨1, _⟩ =>
    show win0_4.index t (1 : Fin 2) * 2000 ≤ (i 1).val ∧ (i 1).val < win0_4.index t (1 : Fin 2) * 2000 + 2000
    rw [e1]; omega

/-! ## The arrays after the run -/

theorem final2 (c : Dev nD) : (dats m 0 c).arrAt 2 cfg0.N = readout (queries m c) (bankArr m c) :=
  (dats m 0 c).arrAt_eq_of_cover 2 (readout (queries m c) (bankArr m c)) (fun t _ => flushed2_eq m c t) cover2

theorem final3 (c : Dev nD) : (dats m 0 c).arrAt 3 cfg0.N = attention (queries m c) (bankArr m c) :=
  (dats m 0 c).arrAt_eq_of_cover 3 (attention (queries m c) (bankArr m c)) (fun t _ => flushed3_eq m c t) cover3

theorem final4 (c : Dev nD) : (dats m 0 c).arrAt 4 cfg0.N = similarities (queries m c) (bankArr m c) :=
  (dats m 0 c).arrAt_eq_of_cover 4 (similarities (queries m c) (bankArr m c)) (fun t _ => flushed4_eq m c t) cover4

/-- The kernel's run: every weakly fair execution terminates with the three result arrays at `readout`, `attention` and
    `similarities` of the argument arrays, and the arguments unchanged. -/
theorem run : θ_run defs (onTc (τ := τ) (main (F := Ideal))) ⟨m, fun _ => 0, ρ⟩ fun r => ∀ c : Dev nD,
      r.2.mem ((c : Thread nD τ).loc main_v0_0) = readout (queries m c) (bankArr m c)
      ∧ r.2.mem ((c : Thread nD τ).loc main_v0_1) = attention (queries m c) (bankArr m c)
      ∧ r.2.mem ((c : Thread nD τ).loc main_v0_2) = similarities (queries m c) (bankArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c),
      (h c).2.2.1.trans (final4 m c), (h c).2.2.2⟩)
    (Value.run_blocks m ρ)

end Cert.KernelIdeal.Arrays

end
-- ==== Proof.RefRows.lean ====
/-
  The reference's stages, read at an entry.

  The reference computes the same quantities on whole arrays: the similarities by one matrix product, a maximum and two
  sums along the slot axis broadcast back over the array, pointwise arithmetic, and the read-out by a second product.
  Read at row `n` each stage is the row function of `RowSpec` at row `n` of the queries: a broadcast reads its row's
  value, the maximum along the slot axis is the fold of `max` over the row's 2000 slots from the starting word, each
  sum is the zero word plus the sum over the row's slots, and the host's division, exponential and absolute value are
  the ideal instance's own.
-/
import proofs.«180317_j46712064311884_1_alg».proof.Proof.Gen.ReferenceIdeal.Read
import proofs.«180317_j46712064311884_1_alg».proof.Proof.ArraySpec
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx
  Cert.MemoryRows

variable (x0 : (⟨S32768x256, .f32⟩ : BufTy).Contents (Elt Ideal)) (x1 : (⟨S2000x256, .f32⟩ : BufTy).Contents (Elt Ideal))

/-- Query `n`'s row of similarities. -/
abbrev rowLogits (n : Fin 32768) : Fin 2000 → EReal := logit (queryAt x0 n) (slots x1)

/-- The first product at (n, k): query `n`'s similarity to slot `k`. -/
theorem ref_similarity (n : Fin 32768) (k : Fin 2000) :
    val_main_v0 (F := Ideal) x0 x1 (ix2 n k) = rowLogits x0 x1 n k := by
  rw [val_main_v0_apply]
  show _ = ∑ c : Fin 256, x0 (ix2 n c) * x1 (ix2 k c)
  refine Finset.sum_congr rfl fun c _ => ?_
  have el : lidx_main_v0 (ix2 n k) c = ix2 n c := funext fun a => by match a with | ⟨0, _⟩ => rfl | ⟨1, _⟩ => rfl
  have er : ridx_main_v0 (ix2 n k) c = ix2 k c := funext fun a => by match a with | ⟨0, _⟩ => rfl | ⟨1, _⟩ => rfl
  rw [el, er]

/-- The reduced index `n` with the slot coordinate put back is (n, k). -/
theorem lift_row (h : S32768x2000.Reduces [1] S32768) (n : Fin 32768) (k : Fin 2000) : h.lift (ix1 n) k = ix2 n k :=
  funext fun a => Fin.ext (by match a with | ⟨0, _⟩ => rfl | ⟨1, _⟩ => rfl)

/-- The host's maximum along the slot axis, at row `n`, of any array: the fold of `max` from the starting word. -/
theorem host_max_apply (y : FVec Ideal S32768x2000 .f32) (n : Fin 32768) :
    Host.reduce FloatOps.maximumf y (val_main_cst (F := Ideal)) reducesTo_S32768x2000_S32768_d1 h_S_ (ix1 n)
      = (Finset.univ : Finset (Fin 2000)).fold max bottom (fun k => y (ix2 n k)) := by
  have h : S32768x2000.Reduces [1] S32768 := by decide
  rw [Host.reduce_eq_fold_single FloatOps.maximumf y _ reducesTo_S32768x2000_S32768_d1 h h_S_ (ix1 n)]
  exact congrArg ((Finset.univ : Finset (Fin 2000)).fold max bottom) (funext fun k => congrArg y (lift_row h n k))

/-- The row's largest similarity. -/
theorem ref_top (n : Fin 32768) : val_main_v3 (F := Ideal) x0 x1 (ix1 n) = top (rowLogits x0 x1 n) := by
  rw [val_main_v3_apply, val_main_v2_apply, val_main_cst_0_apply]
  unfold val_main_v1
  rw [host_max_apply]
  unfold top
  exact congrArg (fun f => max bottom ((Finset.univ : Finset (Fin 2000)).fold max bottom f))
    (funext fun k => ref_similarity x0 x1 n k)

/-- The row index under a value broadcast over the array as a column. -/
theorem under_v5 (n : Fin 32768) (k : Fin 2000) : idx_main_v4 (idx_main_v5 (ix2 n k)) = ix1 n :=
  funext fun a => by match a with | ⟨0, _⟩ => rfl
theorem under_v10 (n : Fin 32768) (k : Fin 2000) : idx_main_v9 (idx_main_v10 (ix2 n k)) = ix1 n :=
  funext fun a => by match a with | ⟨0, _⟩ => rfl
theorem under_v25 (n : Fin 32768) (k : Fin 2000) : idx_main_v25 (ix2 n k) = ix2 n (0 : Fin 1) :=
  funext fun a => by match a with | ⟨0, _⟩ => rfl | ⟨1, _⟩ => rfl
theorem under_v22 (n : Fin 32768) : idx_main_v22 (ix2 n (0 : Fin 1)) = ix1 n :=
  funext fun a => by match a with | ⟨0, _⟩ => rfl
theorem slot_v8 (n : Fin 32768) (j : Fin 2000) : idx_main_v8 (ix1 n) j = ix2 n j :=
  funext fun a => by match a with | ⟨0, _⟩ => rfl | ⟨1, _⟩ => rfl
theorem slot_v21 (n : Fin 32768) (j : Fin 2000) : idx_main_v21 (ix1 n) j = ix2 n j :=
  funext fun a => by match a with | ⟨0, _⟩ => rfl | ⟨1, _⟩ => rfl

/-- The shifted exponential at (n, k). -/
theorem ref_expd (n : Fin 32768) (k : Fin 2000) :
    val_main_v7 (F := Ideal) x0 x1 (ix2 n k) = expd (rowLogits x0 x1 n) k := by
  rw [val_main_v7_apply, val_main_v6_apply, val_main_v5_apply, val_main_v4_apply, under_v5, ref_top, ref_similarity]
  rfl

/-- The softmax weight at (n, k). -/
theorem ref_soft (n : Fin 32768) (k : Fin 2000) :
    val_main_v11 (F := Ideal) x0 x1 (ix2 n k) = soft (rowLogits x0 x1 n) k := by
  rw [val_main_v11_apply, val_main_v10_apply, val_main_v9_apply, under_v10, val_main_v8_apply, val_main_cst_1_apply, ref_expd]
  have hs : ∀ j : Fin 2000, val_main_v7 (F := Ideal) x0 x1 (idx_main_v8 (ix1 n) j) = expd (rowLogits x0 x1 n) j :=
    fun j => by rw [slot_v8, ref_expd]
  simp only [hs]
  unfold soft
  show Ideal.div _ (Ideal.ofBits .f32 0x00000000#32 + _) = _
  rw [Ideal.ofBits_zero_f32, zero_add]

/-- The softmax weight less the threshold at (n, k). -/
theorem ref_excess (n : Fin 32768) (k : Fin 2000) :
    val_main_v13 (F := Ideal) x0 x1 (ix2 n k) = excess (rowLogits x0 x1 n) k := by
  rw [val_main_v13_apply, val_main_v12_apply, val_main_cst_2_apply, ref_soft]
  rfl

/-- The hard-shrunk weight at (n, k). -/
theorem ref_shrunk (n : Fin 32768) (k : Fin 2000) :
    val_main_v19 (F := Ideal) x0 x1 (ix2 n k) = shrunk (rowLogits x0 x1 n) k := by
  rw [val_main_v19_apply, val_main_v15_apply, val_main_v14_apply, val_main_call0_v0_apply, val_main_call0_cst_apply,
    val_main_v18_apply, val_main_v16_apply, val_main_v17_apply, val_main_cst_3_apply, ref_excess, ref_soft]
  rfl

/-- The attention weight at (n, k). -/
theorem ref_weight (n : Fin 32768) (k : Fin 2000) :
    val_main_v26 (F := Ideal) x0 x1 (ix2 n k) = weight (rowLogits x0 x1 n) k := by
  rw [val_main_v26_apply, val_main_v25_apply, under_v25, val_main_v24_apply, val_main_v23_apply, val_main_cst_5_apply,
    val_main_v22_apply, under_v22, val_main_v21_apply, val_main_cst_4_apply, ref_shrunk]
  have hs : ∀ j : Fin 2000, val_main_v20 (F := Ideal) x0 x1 (idx_main_v21 (ix1 n) j)
      = max (shrunk (rowLogits x0 x1 n) j) (-(shrunk (rowLogits x0 x1 n) j)) :=
    fun j => by rw [slot_v21, val_main_v20_apply, ref_shrunk]; rfl
  simp only [hs]
  unfold weight mass
  show Ideal.div _ (max (Ideal.ofBits .f32 0x00000000#32 + _) tiny) = _
  rw [Ideal.ofBits_zero_f32, zero_add]

/-- The second product at (n, c): channel `c` of query `n`'s read-out. -/
theorem ref_readout (n : Fin 32768) (c : Fin 256) :
    val_main_v27 (F := Ideal) x0 x1 (ix2 n c) = recombine (weight (rowLogits x0 x1 n)) (slots x1) c := by
  rw [val_main_v27_apply]
  unfold recombine
  refine Finset.sum_congr rfl fun k _ => ?_
  have el : lidx_main_v27 (ix2 n c) k = ix2 n k := funext fun a => by match a with | ⟨0, _⟩ => rfl | ⟨1, _⟩ => rfl
  have er : ridx_main_v27 (ix2 n c) k = ix2 k c := funext fun a => by match a with | ⟨0, _⟩ => rfl | ⟨1, _⟩ => rfl
  rw [el, er, ref_weight]

/-! ## The three results as whole arrays -/

/-- The similarities the reference returns are the array `similarities`. -/
theorem similarities_eq : val_main_v0 (F := Ideal) x0 x1 = similarities x0 x1 := by
  funext i
  obtain ⟨n, k, rfl⟩ : ∃ (n : Fin 32768) (k : Fin 2000), i = ix2 n k := ⟨i 0, i 1, eq_ix2 i⟩
  exact ref_similarity x0 x1 n k

/-- The attention weights the reference returns are the array `attention`. -/
theorem attention_eq : val_main_v26 (F := Ideal) x0 x1 = attention x0 x1 := by
  funext i
  obtain ⟨n, k, rfl⟩ : ∃ (n : Fin 32768) (k : Fin 2000), i = ix2 n k := ⟨i 0, i 1, eq_ix2 i⟩
  exact ref_weight x0 x1 n k

/-- The read-out the reference returns is the array `readout`. -/
theorem readout_eq : val_main_v27 (F := Ideal) x0 x1 = readout x0 x1 := by
  funext i
  obtain ⟨n, c, rfl⟩ : ∃ (n : Fin 32768) (c : Fin 256), i = ix2 n c := ⟨i 0, i 1, eq_ix2 i⟩
  exact ref_readout x0 x1 n c

end Cert.ReferenceIdeal.Rows

end
-- ==== Proof.lean ====
/-
  Memory-bank attention: a Pallas kernel against its jnp reference, over the extended reals.

  Both programs take 32768 queries `x` and a bank `W` of 2000 slots, 256 channels each, and return three arrays: the
  similarities `x · Wᵀ`; the attention weights — a softmax of each row of similarities, hard-shrunk at a threshold
  (`relu(a − λ) · a / (|a − λ| + ε)`) and divided by the row's L1 mass floored at ε —; and the read-out, the weights
  times `W`. The kernel does this 256 rows at a time over a grid of 128 points with the whole bank resident, casting the
  operands of both products to bf16; the reference does it on the whole arrays.

  At the ideal instance a change of float format is the identity, a product accumulated into zero and the host's
  `dot_general` are the same sum over the contracted axis, a lane reduction and the host's reduce are the same fold or
  sum over the 2000 slots of a row, and the host's division, exponential and absolute value are the kernel's. Neither
  product is split along its contracted axis and every float literal is the same word in both programs, so each entry
  of each result is literally the same expression of the same entries of `x` and `W` on both sides: the row function
  of `Proof/RowSpec.lean`. No algebraic law beyond re-indexing a finite sum is used, and the inputs' finiteness is never
  needed.

  `Proof/BlockProducts`, `BlockChain`, `BlockPayloads`: what the kernel's body leaves in its three output blocks, entry by
  entry. `Proof/KernelArrays`: the 128 blocks of 256 rows are blocks of one function of the arguments and cover the
  arrays. `Proof/RefRows`: the reference's stages read at an entry are the same row function. Here: the three frames
  (the kernels' generated, the reference's its run with the results dropped), the empty idealization ledger, and the
  two runs side by side.
-/
import proofs.«180317_j46712064311884_1_alg».proof.Defs
import proofs.«180317_j46712064311884_1_alg».proof.Proof.Gen.Kernel
import proofs.«180317_j46712064311884_1_alg».proof.Proof.Gen.Kernel.Skeleton
import proofs.«180317_j46712064311884_1_alg».proof.Proof.Gen.Kernel.Launch
import proofs.«180317_j46712064311884_1_alg».proof.Proof.Gen.Kernel.Points
import proofs.«180317_j46712064311884_1_alg».proof.Proof.Gen.Kernel.Frame
import proofs.«180317_j46712064311884_1_alg».proof.Proof.Gen.KernelIdeal
import proofs.«180317_j46712064311884_1_alg».proof.Proof.Gen.KernelIdeal.Skeleton
import proofs.«180317_j46712064311884_1_alg».proof.Proof.Gen.KernelIdeal.Launch
import proofs.«180317_j46712064311884_1_alg».proof.Proof.Gen.KernelIdeal.Points
import proofs.«180317_j46712064311884_1_alg».proof.Proof.Gen.KernelIdeal.Frame
import proofs.«180317_j46712064311884_1_alg».proof.Proof.Gen.ReferenceIdeal
import proofs.«180317_j46712064311884_1_alg».proof.Proof.Gen.Pre_finite_inputs
import proofs.«180317_j46712064311884_1_alg».proof.Proof.Gen.KernelIdeal.Value
import proofs.«180317_j46712064311884_1_alg».proof.Proof.Gen.ReferenceIdeal.Run
import proofs.«180317_j46712064311884_1_alg».proof.Proof.Gen.ReferenceIdeal.Read
import proofs.«180317_j46712064311884_1_alg».proof.Proof.KernelArrays
import proofs.«180317_j46712064311884_1_alg».proof.Proof.RefRows
import Idealize.ShloMosaic.Adequacy
import Idealize.ShloMosaic.Init

noncomputable section

namespace Cert.Proof

open Idealize.ShloMosaic Idealize.SL.Sem Cert.MemoryRows

/-- The kernel as printed runs to completion and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the results dropped. -/
theorem frame_reference_ideal : Cert.frame_ReferenceIdeal := fun m ρ _ =>
  (θ_run Cert.ReferenceIdeal.defs _ _).mono (fun _ h c => (h c).2.2.2)
    (Cert.ReferenceIdeal.Value.run (F := Ideal) m ρ)

/-- The ideal pass rewrote nothing: the idealization is the kernel's own text read at the ideal instance. -/
theorem preserves : Cert.preserves_Kernel_KernelIdeal := trivial

/-- From memories that agree on the queries and the bank, the kernel's three arrays end at `readout`, `attention`
    and `similarities` of its arguments, and the reference's three results are those same functions of its own. -/
theorem algebraic : Cert.algebraic_KernelIdeal_ReferenceIdeal := by
  intro m ρ m' ρ' _ hagree
  refine ⟨fun c => readout (Cert.KernelIdeal.Arrays.queries m c) (Cert.KernelIdeal.Arrays.bankArr m c),
    fun c => attention (Cert.KernelIdeal.Arrays.queries m c) (Cert.KernelIdeal.Arrays.bankArr m c),
    fun c => similarities (Cert.KernelIdeal.Arrays.queries m c) (Cert.KernelIdeal.Arrays.bankArr m c),
    Cert.KernelIdeal.Arrays.run m ρ, ?_⟩
  refine (θ_run Cert.ReferenceIdeal.defs _ _).mono (fun _ h c => ?_)
    (Cert.ReferenceIdeal.Value.run (F := Ideal) m' ρ')
  obtain ⟨hout, hatt, hsim, harg0, harg1⟩ := h c
  refine ⟨hout.trans ?_, hatt.trans ?_, hsim.trans ?_, harg0, harg1⟩
  · rw [Cert.ReferenceIdeal.Read.val_main_v27_eq, Cert.ReferenceIdeal.Rows.readout_eq, (hagree c).1, (hagree c).2]
  · rw [Cert.ReferenceIdeal.Read.val_main_v26_eq, Cert.ReferenceIdeal.Rows.attention_eq, (hagree c).1, (hagree c).2]
  · rw [Cert.ReferenceIdeal.Read.val_main_v0_eq, Cert.ReferenceIdeal.Rows.similarities_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
